-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x1024 : Shape := ⟨2, ![2048, 1024]⟩
abbrev S512x1024 : Shape := ⟨2, ![512, 1024]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1024, .bf16⟩
  | .hbm, ⟨12, _⟩ => ⟨S1x8192, .f32⟩
  | .hbm, ⟨13, _⟩ => ⟨S8192x8192, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  transposes_S8192x1_S1x8192_1_0 : S8192x1.Transposes [1, 0] S1x8192
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x8192.size a
  hwx0_4 : ∀ i : grid0.Coords, EltTy.bits .f32 = 32 ∨ (Rect.block (s := S8192x8192) S2048x512.size (cc0_transform_4 i) (hinb0_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v3) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.SqDist.lean ====
/-
  Pairwise squared distances, as one function of two arrays of extended reals.

  For a matrix `q` of `a` rows and a matrix `s` of `b` rows, both of width `d`, the entry at `(n, m)` is

      max ( (‖q n‖² + ‖s m‖²) − 2 · ⟨q n, s m⟩ , 0 ),

  where ‖x r‖² is the sum over the row's entries of their squares, started from the 32-bit zero word, and
  ⟨q n, s m⟩ is the sum over `k` of `q (n, k) · s (m, k)`. The three float literals (the zero a row sum starts
  from, the factor two, the zero of the clamp) are kept as their words: the same words stand on both sides of the
  comparison and are never evaluated. The grouping is the one both programs use — the two squared lengths are added
  first, then twice the inner product is subtracted —, so nothing here needs the entries to be finite.
-/
import Idealize.ShloMosaic.PureOps.Ideal
import Idealize.ShloMosaic.Lib.ValueIdx

noncomputable section

namespace Cert.SqDist

open Idealize.ShloMosaic Idealize.ShloMosaic.ValueIdx

/-- An array of `a` rows and `b` columns of extended reals. -/
abbrev Mat (a b : ℕ) : Type := (⟨2, ![a, b]⟩ : Shape).Idx → EReal

/-- The squared length of row `r`: the zero word plus the sum of the squares of the row's entries. -/
def rowSq {a d : ℕ} (x : Mat a d) (r : Fin a) : EReal :=
  Ideal.ofBits .f32 0x00000000#32 + ∑ k : Fin d, x (ix2 r k) * x (ix2 r k)

/-- The inner product of row `n` of `q` with row `m` of `s`. -/
def rowDot {a b d : ℕ} (q : Mat a d) (s : Mat b d) (n : Fin a) (m : Fin b) : EReal :=
  ∑ k : Fin d, q (ix2 n k) * s (ix2 m k)

/-- From the two squared lengths and the inner product to the clamped squared distance. -/
def clamped (qq ss qs : EReal) : EReal :=
  max (qq + ss - Ideal.ofBits .f32 0x40000000#32 * qs) (Ideal.ofBits .f32 0x00000000#32)

/-- The array of clamped squared distances between the rows of `q` and the rows of `s`. -/
def sqDist {a b d : ℕ} (q : Mat a d) (s : Mat b d) : Mat a b := fun j =>
  clamped (rowSq q (j 0)) (rowSq s (j 1)) (rowDot q s (j 0) (j 1))

/-- The entry at `(n, m)`, with the coordinates named. -/
theorem sqDist_apply {a b d : ℕ} (q : Mat a d) (s : Mat b d) (n : Fin a) (m : Fin b) :
    sqDist q s (ix2 n m) = clamped (rowSq q n) (rowSq s m) (rowDot q s n m) := rfl

end Cert.SqDist

end
-- ==== Proof.HostPrefix.lean ====
/-
  What the region's windows find in their arrays.

  Before the region, the program squares each argument, sums each row of the squares from a zero word, keeps the sums
  as a column, rounds each argument to sixteen bits (at the exact values: the identity), and transposes the second
  argument's column of sums into a row. The four arrays the region reads are therefore: the first argument itself,
  the second argument itself, the column whose row `r` is the squared length of the first argument's row `r`, and
  the row whose lane `r` is the squared length of the second argument's row `r`.
-/
import proofs.«150479_j27874337751124_2_alg».proof.Proof.Gen.KernelIdeal.Frame
import proofs.«150479_j27874337751124_2_alg».proof.Proof.SqDist
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.SqDist
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The host's sum of a row of squares, from the zero word, is the row's squared length. -/
theorem hostRowSq_apply (x : FVec Ideal S8192x1024 .f32) (r : Fin 8192) :
    Host.reduceAdd (F := Ideal) (mulf x x) (constant (F := Ideal) S_ .f32 0x00000000#32) reducesTo_S8192x1024_S8192_d1 h_S_ (ix1 r)
      = rowSq (a := 8192) (d := 1024) x r := by
  have hR : S8192x1024.Reduces [(1 : Fin S8192x1024.rank)] S8192 := by decide
  simp only [Host.reduceAdd, Ideal.hostReduceAdd_def]
  rw [Ideal.hostReduceAdd_single reducesTo_S8192x1024_S8192_d1 hR]
  refine congrArg (_ + ·) (Finset.sum_congr rfl fun k _ => ?_)
  have e : hR.lift (ix1 r) k = ix2 r k :=
    funext fun a => Fin.ext (by match a with | ⟨0, _⟩ => rfl | ⟨1, _⟩ => rfl)
  show mulf x x (hR.lift (ix1 r) k) = x (ix2 r k) * x (ix2 r k)
  rw [e]
  rfl

/-- The first operand's array is the first argument: the rounding to sixteen bits is the identity at the exact values. -/
theorem V_lhs (c : Dev nD) :
    (V m c main_v3 : S8192x1024.Idx → EReal) = (m ((c : Thread nD τ).loc main_arg0) : S8192x1024.Idx → EReal) := by
  dsimp only [Gen.V, Gen.hostOps0]
  after_results
  rfl

/-- The second operand's array is the second argument. -/
theorem V_rhs (c : Dev nD) :
    (V m c main_v7 : S8192x1024.Idx → EReal) = (m ((c : Thread nD τ).loc main_arg1) : S8192x1024.Idx → EReal) := by
  dsimp only [Gen.V, Gen.hostOps0]
  after_results
  rfl

/-- The column operand: the first argument's row sums of squares, kept as a column. -/
theorem V_col (c : Dev nD) :
    (V m c main_v2 : S8192x1.Idx → EReal)
      = broadcastInDim S8192x1 ![0] bcast_S8192_S8192x1_0
          (Host.reduceAdd (F := Ideal) (mulf (m ((c : Thread nD τ).loc main_arg0)) (m ((c : Thread nD τ).loc main_arg0)))
            (constant (F := Ideal) S_ .f32 0x00000000#32) reducesTo_S8192x1024_S8192_d1 h_S_) := by
  dsimp only [Gen.V, Gen.hostOps0]
  after_results

/-- The row operand: the second argument's row sums of squares, kept as a column and transposed. -/
theorem V_row (c : Dev nD) :
    (V m c main_v8 : S1x8192.Idx → EReal)
      = transpose S1x8192 [1, 0] (broadcastInDim S8192x1 ![0] bcast_S8192_S8192x1_0
          (Host.reduceAdd (F := Ideal) (mulf (m ((c : Thread nD τ).loc main_arg1)) (m ((c : Thread nD τ).loc main_arg1)))
            (constant (F := Ideal) S_ .f32 0x00000000#32) reducesTo_S8192x1024_S8192_d1 h_S_)) transposes_S8192x1_S1x8192_1_0 := by
  dsimp only [Gen.V, Gen.hostOps0]
  after_results

/-- A column of kept row sums, read at row `r`. -/
theorem keptColumn_apply (y : FVec Ideal S8192 .f32) (r : Fin 8192) :
    broadcastInDim S8192x1 ![0] bcast_S8192_S8192x1_0 y (ix2 r (0 : Fin 1)) = y (ix1 r) :=
  broadcastInDim_apply _ bcast_S8192_S8192x1_0 y (ix2 r (0 : Fin 1)) (ix1 r) (fun a => match a with
    | ⟨0, _⟩ => by show r.val = if (8192 : Nat) = 1 then 0 else r.val; rw [if_neg (by decide)])

/-- The column operand at row `r` is the squared length of the first argument's row `r`. -/
theorem V_col_apply (c : Dev nD) (r : Fin 8192) :
    (V m c main_v2 : S8192x1.Idx → EReal) (ix2 r (0 : Fin 1))
      = rowSq (a := 8192) (d := 1024) (m ((c : Thread nD τ).loc main_arg0)) r := by
  rw [V_col, keptColumn_apply]
  exact hostRowSq_apply _ r

/-- The row operand at lane `r` is the squared length of the second argument's row `r`. -/
theorem V_row_apply (c : Dev nD) (r : Fin 8192) :
    (V m c main_v8 : S1x8192.Idx → EReal) (ix2 (0 : Fin 1) r)
      = rowSq (a := 8192) (d := 1024) (m ((c : Thread nD τ).loc main_arg1)) r := by
  rw [V_row, transpose_ix2_apply, keptColumn_apply]
  exact hostRowSq_apply _ r

end Cert.KernelIdeal.Hand

end
-- ==== Proof.LibColBroadcast.lean ====
/-
  A column laid across the lanes of a matrix, read at an index: an [a, 1] array broadcast to [a, b] reads, at (p, c),
  the column's entry at row p, whatever the lane c. (The companion of the library's row form [1, b] → [a, b].)
  General in the extents and in the element type.
-/
import Idealize.ShloMosaic.Lib.ValueIdx
import Idealize.ShloMosaic.Lib.Pipeline.Value

namespace Cert.LibColBroadcast

open Idealize.ShloMosaic Idealize.ShloMosaic.ValueIdx

variable {α : Type}

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  The kernel body's stored value at an entry of the output block.

  The body loads a [2048, 1024] block of the first operand, a [512, 1024] block of the second, a [2048, 1] column and
  a [1, 512] row, and stores one [2048, 512] value: the column laid across the lanes plus the row laid down the
  sublanes, minus twice the product of the first block with the transpose of the second (accumulated into a zero
  splat), clamped below at zero. At entry `(p, q)` the column contributes its row `p`, the row its lane `q`, and the
  product the sum over `k` of `x0 (p, k) · x1 (q, k)`: the clamped combination `SqDist.clamped` of those three numbers.
-/
import proofs.«150479_j27874337751124_2_alg».proof.Proof.Gen.KernelIdeal.Skeleton
import proofs.«150479_j27874337751124_2_alg».proof.Proof.SqDist
import proofs.«150479_j27874337751124_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.SqDist Cert.LibColBroadcast
open Idealize.ShloMosaic Idealize.ShloMosaic.ValueIdx

/-- The left operand's row is the output's row. -/
theorem dot_lhs_0 (i : S2048x512.Idx) (κ : dot_S2048x1024_S512x1024_S2048x512_1_1_0_0_n_n.contr.Idx) :
    (dot_S2048x1024_S512x1024_S2048x512_1_1_0_0_n_n.lhsIdx i κ 0).val = (i 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl

/-- The right operand's row is the output's column: the product is with the transpose. -/
theorem dot_rhs_0 (i : S2048x512.Idx) (κ : dot_S2048x1024_S512x1024_S2048x512_1_1_0_0_n_n.contr.Idx) :
    (dot_S2048x1024_S512x1024_S2048x512_1_1_0_0_n_n.rhsIdx i κ 0).val = (i 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- The product into a zero accumulator, at `(p, q)`: the sum over the shared width of the two rows' products. -/
theorem matmul_rows (x0 : FVec Ideal S2048x1024 .bf16) (x1 : FVec Ideal S512x1024 .bf16) (p : Fin 2048) (q : Fin 512) :
    matmul dot_S2048x1024_S512x1024_S2048x512_1_1_0_0_n_n none x0 x1 (constant S2048x512 .f32 0x00000000#32) (ix2 p q)
      = ∑ k : Fin 1024, x0 (ix2 p k) * x1 (ix2 q k) := by
  simp only [matmul]
  rw [Ideal.matmul_constant_zero_apply,
    ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q)
      ((contrEquiv1 dot_S2048x1024_S512x1024_S2048x512_1_1_0_0_n_n 1024 rfl rfl).symm k) = ix2 p k :=
    funext fun a => Fin.ext (by
      match a with
      | ⟨0, _⟩ => exact dot_lhs_0 _ _
      | ⟨1, _⟩ => exact (dot_S2048x1024_S512x1024_S2048x512_1_1_0_0_n_n.lhsIdx_val_of_single rfl _ _).trans hk)
  have er : dot_S2048x1024_S512x1024_S2048x512_1_1_0_0_n_n.rhsIdx (ix2 p q)
      ((contrEquiv1 dot_S2048x1024_S512x1024_S2048x512_1_1_0_0_n_n 1024 rfl rfl).symm k) = ix2 q k :=
    funext fun a => Fin.ext (by
      match a with
      | ⟨0, _⟩ => exact dot_rhs_0 _ _
      | ⟨1, _⟩ => exact (dot_S2048x1024_S512x1024_S2048x512_1_1_0_0_n_n.rhsIdx_val_of_single rfl _ _).trans hk)
  rw [el, er]

/-- The stored value at `(p, q)`: the clamped combination of the column's row `p`, the row's lane `q` and the two
    rows' inner product. -/
theorem payload_apply (x0 : Vec Ideal S2048x1024 .bf16) (x1 : Vec Ideal S512x1024 .bf16) (x2 : Vec Ideal S2048x1 .f32)
    (x3 : Vec Ideal S1x512 .f32) (p : Fin 2048) (q : Fin 512) :
    k0_pay1 x0 x1 x2 x3 (ix2 p q)
      = clamped (x2 (ix2 p (0 : Fin 1))) (x3 (ix2 (0 : Fin 1) q)) (∑ k : Fin 1024, x0 (ix2 p k) * x1 (ix2 q k)) := by
  unfold k0_pay1
  simp only [shapeCast_self]
  rw [maximumf_apply, subf_apply, addf_apply, mulf_apply, broadcast_apply, broadcast_apply,
    broadcastTo_a1_ab_apply, broadcastTo_1b_ab_apply, matmul_rows]
  rfl

/-- The stored value as one function of the entry's two coordinates. -/
def blockValue (x0 : Vec Ideal S2048x1024 .bf16) (x1 : Vec Ideal S512x1024 .bf16) (x2 : Vec Ideal S2048x1 .f32)
    (x3 : Vec Ideal S1x512 .f32) : Vec Ideal S2048x512 .f32 := fun j =>
  clamped (x2 (ix2 (j 0) (0 : Fin 1))) (x3 (ix2 (0 : Fin 1) (j 1))) (∑ k : Fin 1024, x0 (ix2 (j 0) k) * x1 (ix2 (j 1) k))

/-- The body's stored value is that function. -/
theorem payload_eq (x0 : Vec Ideal S2048x1024 .bf16) (x1 : Vec Ideal S512x1024 .bf16) (x2 : Vec Ideal S2048x1 .f32)
    (x3 : Vec Ideal S1x512 .f32) : k0_pay1 x0 x1 x2 x3 = blockValue x0 x1 x2 x3 :=
  funext fun j => by
    obtain ⟨p, q, rfl⟩ : ∃ (p : Fin 2048) (q : Fin 512), j = ix2 p q := ⟨j 0, j 1, eq_ix2 j⟩
    exact payload_apply x0 x1 x2 x3 p q

end Cert.KernelIdeal.Hand

end
-- ==== Proof.KernelSide.lean ====
/-
  From what each grid point writes back to the whole result array.

  The grid has 4 × 16 points. At point `(i, j)` the output block is rows `2048 i … 2048 i + 2047` and columns
  `512 j … 512 j + 511` of the result; the first operand's block is the same rows of the first argument (all 1024
  columns), the second operand's block is rows `512 j … 512 j + 511` of the second argument, the column operand's
  block is the same rows as the output's and the row operand's block the same lanes as the output's columns. So the
  entry `(p, q)` of the block written back at that point is the clamped squared distance between row `2048 i + p` of
  the first argument and row `512 j + q` of the second: the point writes its block of `SqDist.sqDist`. The 64 blocks
  tile the 8192 × 8192 array (the block holding entry `(n, m)` is `(n / 2048, m / 512)`), so the array ends as
  `sqDist` of the two arguments.
-/
import proofs.«150479_j27874337751124_2_alg».proof.Proof.Gen.KernelIdeal.Value
import proofs.«150479_j27874337751124_2_alg».proof.Proof.HostPrefix
import proofs.«150479_j27874337751124_2_alg».proof.Proof.Payload

noncomputable section

namespace Cert.KernelIdeal.Hand

open Cert.KernelIdeal Cert.KernelIdeal.Gen Cert.SqDist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result: the clamped squared distances between the rows of the two arguments as launched. -/
abbrev result (c : Dev nD) : S8192x8192.Idx → EReal :=
  sqDist (a := 8192) (b := 8192) (d := 1024) (m ((c : Thread nD τ).loc main_arg0)) (m ((c : Thread nD τ).loc main_arg1))

/-- How the five windows' blocks move over the grid, decided over its 64 points: the two operands indexed by rows follow
    the output's row block, the two indexed by the second argument's rows follow the output's column block, and the
    output's block indices stay below 4 and 16. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) < 4 ∧ win0_4.index t (1 : Fin 2) < 16 :=
  (by decide +kernel : ∀ t : Fin grid0.N, _)

/-- Every block of the 4 × 16 tiling is some point's output block. -/
theorem block_onto : ∀ (q0 : Fin 4) (q1 : Fin 16), ∃ t : Fin cfg0.N, win0_4.index t = ![q0.val, q1.val] :=
  (by decide +kernel : ∀ (q0 : Fin 4) (q1 : Fin 16), ∃ t : Fin grid0.N, win0_4.index t = ![q0.val, q1.val])

/-- The first operand's block at a point: rows of the first argument starting at the output's row block. -/
theorem lhs_block (c : Dev nD) (t : Fin cfg0.N) (p : Fin 2048) (k : Fin 1024) (n : Fin 8192)
    (hn : n.val = win0_4.index t (0 : Fin 2) * 2048 + p.val) :
    (iblk m c 0 t : Vec Ideal S2048x1024 .bf16) (ix2 p k)
      = (m ((c : Thread nD τ).loc main_arg0) : S8192x1024.Idx → EReal) (ix2 n k) := by
  obtain ⟨e0, e1, -⟩ := block_indices t
  unfold iblk
  rw [View.read_apply]
  show (V m c main_v3 : S8192x1024.Idx → EReal) _ = _
  rw [V_lhs]
  refine congrArg _ (funext fun a => Fin.ext ?_)
  match a with
  | ⟨0, _⟩ => show win0_0.index t (0 : Fin 2) * 2048 + 1 * p.val = n.val; omega
  | ⟨1, _⟩ => show win0_0.index t (1 : Fin 2) * 1024 + 1 * k.val = k.val; omega

/-- The second operand's block at a point: rows of the second argument starting at the output's column block. -/
theorem rhs_block (c : Dev nD) (t : Fin cfg0.N) (q : Fin 512) (k : Fin 1024) (n : Fin 8192)
    (hn : n.val = win0_4.index t (1 : Fin 2) * 512 + q.val) :
    (iblk m c 1 t : Vec Ideal S512x1024 .bf16) (ix2 q k)
      = (m ((c : Thread nD τ).loc main_arg1) : S8192x1024.Idx → EReal) (ix2 n k) := by
  obtain ⟨-, -, e0, e1, -⟩ := block_indices t
  unfold iblk
  rw [View.read_apply]
  show (V m c main_v7 : S8192x1024.Idx → EReal) _ = _
  rw [V_rhs]
  refine congrArg _ (funext fun a => Fin.ext ?_)
  match a with
  | ⟨0, _⟩ => show win0_1.index t (0 : Fin 2) * 512 + 1 * q.val = n.val; omega
  | ⟨1, _⟩ => show win0_1.index t (1 : Fin 2) * 1024 + 1 * k.val = k.val; omega

/-- The column operand's block at a point, at row `p`: the squared length of the first argument's matching row. -/
theorem col_block (c : Dev nD) (t : Fin cfg0.N) (p : Fin 2048) (n : Fin 8192)
    (hn : n.val = win0_4.index t (0 : Fin 2) * 2048 + p.val) :
    (iblk m c 2 t : Vec Ideal S2048x1 .f32) (ix2 p (0 : Fin 1))
      = rowSq (a := 8192) (d := 1024) (m ((c : Thread nD τ).loc main_arg0)) n := by
  obtain ⟨-, -, -, -, e0, e1, -⟩ := block_indices t
  unfold iblk
  rw [View.read_apply]
  show (V m c main_v2 : S8192x1.Idx → EReal) _ = _
  refine Eq.trans (congrArg _ (funext fun a => Fin.ext ?_)) (V_col_apply m c n)
  match a with
  | ⟨0, _⟩ => show win0_2.index t (0 : Fin 2) * 2048 + 1 * p.val = n.val; omega
  | ⟨1, _⟩ => show win0_2.index t (1 : Fin 2) * 1 + 1 * 0 = 0; omega

/-- The row operand's block at a point, at lane `q`: the squared length of the second argument's matching row. -/
theorem row_block (c : Dev nD) (t : Fin cfg0.N) (q : Fin 512) (n : Fin 8192)
    (hn : n.val = win0_4.index t (1 : Fin 2) * 512 + q.val) :
    (iblk m c 3 t : Vec Ideal S1x512 .f32) (ix2 (0 : Fin 1) q)
      = rowSq (a := 8192) (d := 1024) (m ((c : Thread nD τ).loc main_arg1)) n := by
  obtain ⟨-, -, -, -, -, -, e0, e1, -⟩ := block_indices t
  unfold iblk
  rw [View.read_apply]
  show (V m c main_v8 : S1x8192.Idx → EReal) _ = _
  refine Eq.trans (congrArg _ (funext fun a => Fin.ext ?_)) (V_row_apply m c n)
  match a with
  | ⟨0, _⟩ => show win0_3.index t (0 : Fin 2) * 1 + 1 * 0 = 0; omega
  | ⟨1, _⟩ => show win0_3.index t (1 : Fin 2) * 512 + 1 * q.val = n.val; omega

/-- The stored value at `(p, q)`, spelt out. -/
theorem blockValue_apply (x0 : Vec Ideal S2048x1024 .bf16) (x1 : Vec Ideal S512x1024 .bf16) (x2 : Vec Ideal S2048x1 .f32)
    (x3 : Vec Ideal S1x512 .f32) (p : Fin 2048) (q : Fin 512) :
    blockValue x0 x1 x2 x3 (ix2 p q)
      = clamped (x2 (ix2 p (0 : Fin 1))) (x3 (ix2 (0 : Fin 1) q)) (∑ k : Fin 1024, x0 (ix2 p k) * x1 (ix2 q k)) := rfl

/-- The clamped combination respects equal ingredients. -/
theorem clamped_congr {a a' b b' d d' : EReal} (ha : a = a') (hb : b = b') (hd : d = d') :
    clamped a b d = clamped a' b' d' := by rw [ha, hb, hd]

/-- One entry of what a point's body leaves: the result's entry at the matching row and column of the whole array. -/
theorem entry_eq (c : Dev nD) (t : Fin cfg0.N) (p : Fin 2048) (q : Fin 512) (n n' : Fin 8192)
    (hn : n.val = win0_4.index t (0 : Fin 2) * 2048 + p.val) (hn' : n'.val = win0_4.index t (1 : Fin 2) * 512 + q.val) :
    blockValue (iblk m c 0 t) (iblk m c 1 t) (iblk m c 2 t) (iblk m c 3 t) (ix2 p q) = result m c (ix2 n n') := by
  refine (blockValue_apply _ _ _ _ p q).trans (Eq.trans ?_ (sqDist_apply _ _ n n').symm)
  refine clamped_congr (col_block m c t p n hn) (row_block m c t q n' hn') (Finset.sum_congr rfl fun k _ => ?_)
  exact congrArg₂ (· * ·) (lhs_block m c t p k n hn) (rhs_block m c t q k n' hn')

/-- What point `t` writes back is its block of the result. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S2048x1024) zero_offsets, View.ld_unit_zero (S := S512x1024) zero_offsets,
    View.ld_unit_zero (S := S2048x1) zero_offsets, View.ld_unit_zero (S := S1x512) zero_offsets]
  rw [payload_eq]
  obtain ⟨-, -, -, -, -, -, -, -, b0, b1⟩ := block_indices t
  funext j
  have hj0 : (j 0).val < 2048 := (j 0).isLt
  have hj1 : (j 1).val < 512 := (j 1).isLt
  have hn : win0_4.index t (0 : Fin 2) * 2048 + (j 0).val < 8192 := by omega
  have hn' : win0_4.index t (1 : Fin 2) * 512 + (j 1).val < 8192 := by omega
  have ej : j = ix2 (⟨(j 0).val, hj0⟩ : Fin 2048) (⟨(j 1).val, hj1⟩ : Fin 512) :=
    funext fun a => Fin.ext (by match a with | ⟨0, _⟩ => rfl | ⟨1, _⟩ => rfl)
  have eE : ((cfg0.win 4).blk t).view.emb j
      = ix2 (⟨win0_4.index t (0 : Fin 2) * 2048 + (j 0).val, hn⟩ : Fin 8192) (⟨win0_4.index t (1 : Fin 2) * 512 + (j 1).val, hn'⟩ : Fin 8192) :=
    funext fun a => Fin.ext (by
      match a with
      | ⟨0, _⟩ => show win0_4.index t (0 : Fin 2) * 2048 + 1 * (j 0).val = win0_4.index t (0 : Fin 2) * 2048 + (j 0).val; omega
      | ⟨1, _⟩ => show win0_4.index t (1 : Fin 2) * 512 + 1 * (j 1).val = win0_4.index t (1 : Fin 2) * 512 + (j 1).val; omega)
  show blockValue (iblk m c 0 t) (iblk m c 1 t) (iblk m c 2 t) (iblk m c 3 t) j = result m c (((cfg0.win 4).blk t).view.emb j)
  rw [eE]
  exact (congrArg (blockValue (iblk m c 0 t) (iblk m c 1 t) (iblk m c 2 t) (iblk m c 3 t)) ej).trans
    (entry_eq m c t _ _ _ _ rfl rfl)

/-- An index of the result is in point `t`'s output block iff each coordinate is in the block's range on its axis. -/
theorem mem_block (t : Fin cfg0.N) (i : S8192x8192.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v9).slice (win0_4.rect t)).set ↔ _
  rw [View.set_slice_whole, Rect.mem_set_unit]
  exact Iff.rfl

/-- Every entry of the result lies in some point's output block: the one at its row over 2048 and its column over 512. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- So the result array ends holding the clamped squared distances of the two arguments. -/
theorem final (c : Dev nD) : (dats m 0 c).arrAt 4 cfg0.N = result m c :=
  (dats m 0 c).arrAt_eq_of_cover 4 (result m c) (fun t _ => flushed_eq m c t) covered

/-- The run, read: the result array at the clamped squared distances, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefSide.lean ====
/-
  The reference computes the array of clamped squared distances.

  Its last stage is a maximum with a zero splat of the difference between the sum of two broadcasts — the rows'
  squared lengths of the first argument laid along the columns, those of the second argument transposed and laid
  along the rows — and twice the product of the first argument with the transpose of the second. Read at an index
  `(n, m)`, stage by stage: the column broadcast reads row `n`'s sum, the transposed row broadcast reads row `m`'s
  sum, the product reads the sum over `k` of `x0 (n, k) · x1 (m, k)`. That is `sqDist x0 x1` at `(n, m)`.
-/
import proofs.«150479_j27874337751124_2_alg».proof.Proof.Gen.ReferenceIdeal.Read
import proofs.«150479_j27874337751124_2_alg».proof.Proof.SqDist

noncomputable section

namespace Cert.ReferenceIdeal.Hand

open Cert.ReferenceIdeal Cert.ReferenceIdeal.Gen Cert.ReferenceIdeal.Read Cert.SqDist
open Idealize.ShloMosaic Idealize.ShloMosaic.ValueIdx

/-- Row `n`'s entry `k`, reached through the column broadcast, the keepdims broadcast and the row sum. -/
theorem idx_rows (i : S8192x8192.Idx) (k : Fin 1024) :
    idx_main_v1 (idx_main_v2 (idx_main_v8 i)) k = ix2 (i 0) k :=
  funext fun a => Fin.ext (by match a with | ⟨0, _⟩ => rfl | ⟨1, _⟩ => rfl)

/-- Row `m`'s entry `k`, reached through the row broadcast, the transpose, the keepdims broadcast and the row sum. -/
theorem idx_cols (i : S8192x8192.Idx) (k : Fin 1024) :
    idx_main_v4 (idx_main_v5 (idx_main_v6 (idx_main_v9 i))) k = ix2 (i 1) k :=
  funext fun a => Fin.ext (by match a with | ⟨0, _⟩ => rfl | ⟨1, _⟩ => rfl)

/-- The product's left factor sits in row `n`. -/
theorem idx_lhs (i : S8192x8192.Idx) (k : Fin 1024) : lidx_main_v7 i k = ix2 (i 0) k :=
  funext fun a => Fin.ext (by match a with | ⟨0, _⟩ => rfl | ⟨1, _⟩ => rfl)

/-- The product's right factor sits in row `m` of the second argument. -/
theorem idx_rhs (i : S8192x8192.Idx) (k : Fin 1024) : ridx_main_v7 i k = ix2 (i 1) k :=
  funext fun a => Fin.ext (by match a with | ⟨0, _⟩ => rfl | ⟨1, _⟩ => rfl)

/-- The reference's last stage is the array of clamped squared distances of its two arguments. -/
theorem result_eq (x0 x1 : (⟨S8192x1024, .f32⟩ : BufTy).Contents (Elt Ideal)) :
    val_main_v15 (F := Ideal) x0 x1 = sqDist (a := 8192) (b := 8192) (d := 1024) x0 x1 := by
  funext i
  rw [val_main_v15_apply, val_main_v13_apply, val_main_v10_apply, val_main_v8_apply, val_main_v2_apply,
    val_main_v1_apply, val_main_v9_apply, val_main_v6_apply, val_main_v5_apply, val_main_v4_apply,
    val_main_v12_apply, val_main_v11_apply, val_main_v7_apply, val_main_v14_apply]
  simp only [idx_rows, idx_cols, idx_lhs, idx_rhs, val_main_v0_apply, val_main_v3_apply, val_main_cst_apply,
    val_main_cst_0_apply, val_main_cst_1_apply, val_main_cst_2_apply, Ideal.ofBits_def, Ideal.addf_def,
    Ideal.subf_def, Ideal.mulf_def, Ideal.maximumf_def]
  rfl

end Cert.ReferenceIdeal.Hand

end
-- ==== Proof.lean ====
/-
  Pairwise squared distances: the tiled kernel against the plain reference, at the exact values.

  Both programs take two 8192 × 1024 arrays `q` and `s` and return the 8192 × 8192 array whose entry `(n, m)` is

      max ( (‖q n‖² + ‖s m‖²) − 2 · ⟨q n, s m⟩ , 0 )

  (`SqDist.sqDist`). The reference computes it with whole-array operations. The kernel's program first forms the two
  vectors of squared row lengths and rounds the arguments to sixteen bits — at the exact values the rounding is the
  identity —, then runs a 4 × 16 grid: each point multiplies a 2048-row block of `q` with the transpose of a 512-row
  block of `s`, adds the matching pieces of the two squared-length vectors, subtracts, clamps, and writes one
  2048 × 512 block of the result. The blocks tile the result, and each is the matching block of `sqDist q s`
  (Proof/KernelSide.lean); the reference's last stage read index by index is `sqDist q s` as well (Proof/RefSide.lean).
  The two sides apply the same operations in the same grouping to the same sums, so no entry needs to be finite and
  the precondition is not used. The three frame claims are the generated frame runs; the idealization rewrote no
  operation, so there is nothing to preserve.
-/
import proofs.«150479_j27874337751124_2_alg».proof.Defs
import proofs.«150479_j27874337751124_2_alg».proof.Proof.Gen.Kernel
import proofs.«150479_j27874337751124_2_alg».proof.Proof.Gen.Kernel.Frame
import proofs.«150479_j27874337751124_2_alg».proof.Proof.Gen.KernelIdeal
import proofs.«150479_j27874337751124_2_alg».proof.Proof.Gen.KernelIdeal.Frame
import proofs.«150479_j27874337751124_2_alg».proof.Proof.Gen.KernelIdeal.Value
import proofs.«150479_j27874337751124_2_alg».proof.Proof.Gen.ReferenceIdeal
import proofs.«150479_j27874337751124_2_alg».proof.Proof.Gen.ReferenceIdeal.Run
import proofs.«150479_j27874337751124_2_alg».proof.Proof.Gen.ReferenceIdeal.Read
import proofs.«150479_j27874337751124_2_alg».proof.Proof.Gen.Pre_finite_inputs
import proofs.«150479_j27874337751124_2_alg».proof.Proof.KernelSide
import proofs.«150479_j27874337751124_2_alg».proof.Proof.RefSide
import Idealize.ShloMosaic.Adequacy
import Idealize.ShloMosaic.Init

noncomputable section

namespace Cert.Proof

open Idealize.ShloMosaic Idealize.ShloMosaic.TcCoe Idealize.SL.Sem

/-- The kernel's program as printed runs to the end without a fault and leaves its arguments as they were. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the array of clamped squared distances
    between the rows of the first argument and the rows of the second. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Hand.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
